-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S16x2048x1024 : Shape := ⟨3, ![16, 2048, 1024]⟩
abbrev S1024x1024 : Shape := ⟨2, ![1024, 1024]⟩
abbrev S16x512x2048 : Shape := ⟨3, ![16, 512, 2048]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S512x1024 .f32) (main_arg1 : FVec F S16x2048x1024 .f32) (main_arg2 : FVec F S1024x1024 .f32) (main_arg3 : IVec S16x512x2048 1) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S512x1024 : Shape := ⟨2, ![512, 1024]⟩
abbrev S16x2048x1024 : Shape := ⟨3, ![16, 2048, 1024]⟩
abbrev S1024x1024 : Shape := ⟨2, ![1024, 1024]⟩
abbrev S16x512x2048 : Shape := ⟨3, ![16, 512, 2048]⟩
abbrev S16x512x1024 : Shape := ⟨3, ![16, 512, 1024]⟩
abbrev S1x2048x1024 : Shape := ⟨3, ![1, 2048, 1024]⟩
abbrev S1x512x2048 : Shape := ⟨3, ![1, 512, 2048]⟩
abbrev S1x512x1024 : Shape := ⟨3, ![1, 512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S16x2048x1024, .f32⟩
  | .hbm, ⟨2, _⟩ => ⟨S1024x1024, .f32⟩
  | .hbm, ⟨3, _⟩ => ⟨S16x512x2048, .i1⟩
  | .hbm, ⟨4, _⟩ => ⟨S512x1024, .bf16⟩
  | .hbm, ⟨5, _⟩ => ⟨S1024x1024, .bf16⟩
  | .hbm, ⟨6, _⟩ => ⟨S16x2048x1024, .bf16⟩
  | .hbm, ⟨7, _⟩ => ⟨S512x1024, .bf16⟩
  | .hbm, ⟨8, _⟩ => ⟨S16x512x2048, .i32⟩
  | .hbm, ⟨9, _⟩ => ⟨S16x512x2048, .f32⟩
  | .hbm, ⟨10, _⟩ => ⟨S16x512x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x512x2048, .i32⟩
  | .local _ .vmem, ⟨7, _⟩ => ⟨S1x512x2048, .i32⟩
  | .local _ .vmem, ⟨8, _⟩ => ⟨S1x512x2048, .f32⟩
  | .local _ .vmem, ⟨9, _⟩ => ⟨S1x512x2048, .f32⟩
  | .local _ .vmem, ⟨10, _⟩ => ⟨S1x512x1024, .f32⟩
  | .local _ .vmem, ⟨11, _⟩ => ⟨S1x512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  natLt_1_32 : 1 < 32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .bf16 = 32 ∨ (Rect.block (s := S512x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S16x512x2048.size a
  hwx1_2 : ∀ i : grid1.Coords, EltTy.bits .i32 = 32 ∨ (Rect.block (s := S16x512x2048) S1x512x2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S16x512x2048.size a
  hwx1_3 : ∀ i : grid1.Coords, EltTy.bits .f32 = 32 ∨ (Rect.block (s := S16x512x2048) S1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S16x512x1024.size a
  hwx1_4 : ∀ i : grid1.Coords, EltTy.bits .f32 = 32 ∨ (Rect.block (s := S16x512x1024) S1x512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x512x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x1024 : Shape := ⟨2, ![512, 1024]⟩
abbrev S16x2048x1024 : Shape := ⟨3, ![16, 2048, 1024]⟩
abbrev S1024x1024 : Shape := ⟨2, ![1024, 1024]⟩
abbrev S16x512x2048 : Shape := ⟨3, ![16, 512, 2048]⟩
abbrev S_ : Shape := ⟨0, ![]⟩
abbrev S16x2048x512 : Shape := ⟨3, ![16, 2048, 512]⟩
abbrev S16x512 : Shape := ⟨2, ![16, 512]⟩
abbrev S16x512x1 : Shape := ⟨3, ![16, 512, 1]⟩
abbrev S16x512x1024 : Shape := ⟨3, ![16, 512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S16x2048x1024, .f32⟩
  | .hbm, ⟨2, _⟩ => ⟨S1024x1024, .f32⟩
  | .hbm, ⟨3, _⟩ => ⟨S16x512x2048, .i1⟩
  | .hbm, ⟨4, _⟩ => ⟨S512x1024, .f32⟩
  | .hbm, ⟨5, _⟩ => ⟨S_, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S16x2048x512, .f32⟩
  | .hbm, ⟨10, _⟩ => ⟨S16x512x2048, .f32⟩
  | .hbm, ⟨11, _⟩ => ⟨S_, .f32⟩
  | .hbm, ⟨12, _⟩ => ⟨S_, .f32⟩
  | .hbm, ⟨13, _⟩ => ⟨S16x512x2048, .f32⟩
  | .hbm, ⟨14, _⟩ => ⟨S16x512x2048, .f32⟩
  | .hbm, ⟨15, _⟩ => ⟨S_, .f32⟩
  | .hbm, ⟨16, _⟩ => ⟨S16x512, .f32⟩
  | .hbm, ⟨17, _⟩ => ⟨S_, .f32⟩
  | .hbm, ⟨18, _⟩ => ⟨S16x512, .f32⟩
  | .hbm, ⟨19, _⟩ => ⟨S16x512, .f32⟩
  | .hbm, ⟨20, _⟩ => ⟨S16x512x1, .f32⟩
  | .hbm, ⟨21, _⟩ => ⟨S16x512x2048, .f32⟩
  | .hbm, ⟨22, _⟩ => ⟨S16x512x2048, .f32⟩
  | .hbm, ⟨23, _⟩ => ⟨S16x512x2048, .f32⟩
  | .hbm, ⟨24, _⟩ => ⟨S_, .f32⟩
  | .hbm, ⟨25, _⟩ => ⟨S16x512, .f32⟩
  | .hbm, ⟨26, _⟩ => ⟨S16x512x1, .f32⟩
  | .hbm, ⟨27, _⟩ => ⟨S16x512x2048, .f32⟩
  | .hbm, ⟨28, _⟩ => ⟨S16x512x2048, .f32⟩
  | .hbm, ⟨29, _⟩ => ⟨S16x512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  transposes_S16x2048x512_S16x512x2048_0_2_1 : S16x2048x512.Transposes [0, 2, 1] S16x512x2048
  bcast_S_S16x512x2048 : S_.BroadcastsInDim S16x512x2048 (![] : Fin 0 → Fin S16x512x2048.rank)
  reducesTo_S16x512x2048_S16x512_d2 : S16x512x2048.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x2048_0_1_2 : S16x512x1.BroadcastsInDim S16x512x2048 (![0, 1, 2] : Fin 3 → Fin S16x512x2048.rank)
  dot_S512x1024_S1024x1024_S512x1024_1_0_0_1_n_n_wf : DotDims.WF S512x1024 S1024x1024 S512x1024 [1] [0] [0] [1] [] []
  dot_S16x2048x1024_S512x1024_S16x2048x512_2_1_01_0_n_n_wf : DotDims.WF S16x2048x1024 S512x1024 S16x2048x512 [2] [1] [0, 1] [0] [] []
  dot_S16x512x2048_S16x2048x1024_S16x512x1024_2_1_1_2_0_0_wf : DotDims.WF S16x512x2048 S16x2048x1024 S16x512x1024 [2] [1] [1] [2] [0] [0]

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S16x2048x1024_S512x1024_S16x2048x512_2_1_01_0_n_n : DotDims S16x2048x1024 S512x1024 S16x2048x512 where
  lhsContracting := [2]
  rhsContracting := [1]
  lhsNonContracting := [0, 1]
  rhsNonContracting := [0]
  lhsBatch := []
  rhsBatch := []
  wf := dot_S16x2048x1024_S512x1024_S16x2048x512_2_1_01_0_n_n_wf
def dot_S16x512x2048_S16x2048x1024_S16x512x1024_2_1_1_2_0_0 : DotDims S16x512x2048 S16x2048x1024 S16x512x1024 where
  lhsContracting := [2]
  rhsContracting := [1]
  lhsNonContracting := [1]
  rhsNonContracting := [2]
  lhsBatch := [0]
  rhsBatch := [0]
  wf := dot_S16x512x2048_S16x2048x1024_S16x512x1024_2_1_1_2_0_0_wf

class Facts : Prop extends Facts₀ where

variable [Facts]
-- ==== Proof.KernelRun.lean ====
/-
  The idealized kernel's run with its two result arrays named.

  @main is four segments: a stretch of host conversions, the projection kernel, one more conversion, the attention
  kernel. Every weakly fair execution ends, nothing faulting, with every unscoped buffer at the contents the last
  boundary of that chain computes; the generated frame reads the four argument arrays off that state. Here the same
  run is read at the two result buffers as well: each ends at the last boundary's contents for it, which the value
  modules open (the attention kernel's write-backs folded over the array).
-/
import proofs.«140997_j44401371906483_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the output [16, 512, 1024] and the weights
    [16, 512, 2048] at the last boundary's contents and the four arguments as launched. -/
theorem run_named : θ_run defs (onTc (τ := τ) (main (F := F))) ⟨m, fun _ => 0, ρ⟩ (fun r => ∀ c : Dev nD,
      r.2.mem ((c.tc : Thread nD τ).loc main_v5_1) = W4 m ρ c (Proc.devRef .tc main_v5_1)
      ∧ r.2.mem ((c.tc : Thread nD τ).loc main_v5_0) = W4 m ρ c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5_1 (by decide)),
       h c _ (mem_uc main_v5_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.Attention.lean ====
/-
  Masked-softmax attention over the extended reals, as functions of coordinates.

  For a query matrix q (K rows, D columns), a square weight W, per batch b a key matrix key_b (N rows, D columns) and a
  one-bit mask, the programs compute
    p(k, d)       = (sum_i q(k, i) * W(i, d)) * 2^-5                   the projected, scaled query
    s_b(k, n)     = sum_d p(k, d) * key_b(n, d)                        the scores, one row per query row
    s'_b(k, n)    = s_b(k, n) where the mask bit is set, -inf elsewhere
    att_b(k, n)   = exp(s'_b(k, n) - M) / sum_n' exp(s'_b(k, n') - M),  M the maximum of row k of s'_b
    out_b(k, d)   = sum_n att_b(k, n) * key_b(n, d).
  Everything is a function of ONE row k: the softmax never mixes rows. The definitions below are written row by row over
  arbitrary extents; the whole-array functions at this certificate's extents follow.
  The two words are kept as words: 0x3D000000 is the scale 2^-5, 0xFF800000 is -inf.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The scale the projection is multiplied by: the f32 word of 2^-5. -/
abbrev scaleW : EReal := Ideal.ofBits .f32 0x3D000000#32

/-- The value a masked-out score takes: the f32 word of -inf. -/
abbrev negInf : EReal := Ideal.ofBits .f32 0xFF800000#32

/-- The projected query at (k, d): row k of q against column d of W, scaled. -/
def proj {K D : Nat} (q : Fin K → Fin D → EReal) (W : Fin D → Fin D → EReal) (k : Fin K) (d : Fin D) : EReal :=
  (∑ i : Fin D, q k i * W i d) * scaleW

/-- One row of scores: a projected query row p against every key row. -/
def scoreRow {N D : Nat} (p : Fin D → EReal) (key : Fin N → Fin D → EReal) (n : Fin N) : EReal :=
  ∑ d : Fin D, p d * key n d

/-- A row with the masked-out entries at -inf. -/
def maskRow {N : Nat} (mask : Fin N → BitVec 1) (s : Fin N → EReal) (n : Fin N) : EReal :=
  Scalar.select (mask n) (s n) negInf

/-- A row's maximum, folded from -inf. -/
def rowMax {N : Nat} (r : Fin N → EReal) : EReal :=
  (Finset.univ : Finset (Fin N)).fold max negInf r

/-- The softmax of a row: each entry's exponential of its distance to the row maximum, over the sum of them. -/
def softmaxRow {N : Nat} (r : Fin N → EReal) (n : Fin N) : EReal :=
  Ideal.div (Ideal.exp (r n - rowMax r)) (∑ n' : Fin N, Ideal.exp (r n' - rowMax r))

/-- One row of attention weights: the softmax of the masked scores of a projected query row. -/
def attRow {N D : Nat} (p : Fin D → EReal) (key : Fin N → Fin D → EReal) (mask : Fin N → BitVec 1) : Fin N → EReal :=
  softmaxRow (maskRow mask (scoreRow p key))

/-- One row of the output: a row of weights against the key columns. -/
def outRow {N D : Nat} (a : Fin N → EReal) (key : Fin N → Fin D → EReal) (d : Fin D) : EReal :=
  ∑ n : Fin N, a n * key n d

/-! ## The whole arrays, at this certificate's extents -/

/-- The attention weights [16, 512, 2048] of q [512, 1024], key [16, 2048, 1024], W [1024, 1024], mask [16, 512, 2048]. -/
def att (q : (⟨2, ![512, 1024]⟩ : Shape).Idx → EReal) (key : (⟨3, ![16, 2048, 1024]⟩ : Shape).Idx → EReal)
    (W : (⟨2, ![1024, 1024]⟩ : Shape).Idx → EReal) (mask : (⟨3, ![16, 512, 2048]⟩ : Shape).Idx → BitVec 1) :
    (⟨3, ![16, 512, 2048]⟩ : Shape).Idx → EReal := fun i =>
  attRow (proj (fun k d => q (ix2 k d)) (fun a d => W (ix2 a d)) (i 1))
    (fun n d => key (ix3 (i 0) n d)) (fun n => mask (ix3 (i 0) (i 1) n)) (i 2)

/-- The output [16, 512, 1024] of the same arrays. -/
def out (q : (⟨2, ![512, 1024]⟩ : Shape).Idx → EReal) (key : (⟨3, ![16, 2048, 1024]⟩ : Shape).Idx → EReal)
    (W : (⟨2, ![1024, 1024]⟩ : Shape).Idx → EReal) (mask : (⟨3, ![16, 512, 2048]⟩ : Shape).Idx → BitVec 1) :
    (⟨3, ![16, 512, 1024]⟩ : Shape).Idx → EReal := fun i =>
  outRow (attRow (proj (fun k d => q (ix2 k d)) (fun a d => W (ix2 a d)) (i 1))
      (fun n d => key (ix3 (i 0) n d)) (fun n => mask (ix3 (i 0) (i 1) n)))
    (fun n d => key (ix3 (i 0) n d)) (i 2)

end Cert.Attention

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibDotNT.lean ====
/-
  A matrix product with the right operand transposed, read at an entry.

  A product of an [M, K] array with an [N, K] array that contracts the second axis of both and has no batch axis: the
  sum over its one-axis contraction index, read at the output entry (p, q), is the sum over i of the left operand at
  (p, i) times the right operand at (q, i).
-/
import Idealize.ShloMosaic.PureOps.Ideal
import Idealize.ShloMosaic.PureOps.Ideal.Laws
import Idealize.ShloMosaic.Lib.ValueIdx
import proofs.«140997_j44401371906483_1_alg».proof.Proof.LibDotSum

noncomputable section

namespace Cert.LibDotNT

open Idealize.ShloMosaic Idealize.ShloMosaic.ValueIdx

variable {M K N : ℕ} (D : DotDims ⟨2, ![M, K]⟩ ⟨2, ![N, K]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (q, i). -/
theorem rhsIdx_eq (hlc : D.lhsContracting = [1]) (hrc : D.rhsContracting = [1]) (hlb : D.lhsBatch = [])
    (hrb : D.rhsBatch = []) (hln : D.lhsNonContracting = [0]) (hrn : D.rhsNonContracting = [0])
    (p : Fin M) (q : Fin N) (i : Fin K) :
    D.rhsIdx (ix2 p q) ((contrEquiv1 D K (rank_contr_one D hlc) (size_contr_K D hlc)).symm i) = ix2 q i := by
  funext a
  apply Fin.ext
  match a with
  | ⟨0, _⟩ =>
    unfold DotDims.rhsIdx
    have hb : (⟨0, by decide⟩ : Fin 2) ∉ D.rhsBatch := by rw [hrb]; exact List.not_mem_nil
    have hn : (⟨0, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])
  | ⟨1, _⟩ =>
    have h := D.rhsIdx_val_of_single (cr := (1 : Fin 2)) hrc (ix2 p q)
      ((contrEquiv1 D K (rank_contr_one D hlc) (size_contr_K D hlc)).symm i)
    refine h.trans ?_
    exact contrEquiv1_symm_val D K (rank_contr_one D hlc) (size_contr_K D hlc) i

/-- The product's sum at entry (p, q) is the sum over i of left (p, i) times right (q, i). -/
theorem sum_nt (hlc : D.lhsContracting = [1]) (hrc : D.rhsContracting = [1]) (hlb : D.lhsBatch = [])
    (hrb : D.rhsBatch = []) (hln : D.lhsNonContracting = [0]) (hrn : D.rhsNonContracting = [0])
    (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = ∑ i : Fin K, f (ix2 p i) * g (ix2 q i) :=
  Cert.LibDotSum.sum_contr_eq D K (rank_contr_one D hlc) (size_contr_K D hlc) f g (ix2 p q)
    (fun i => f (ix2 p i)) (fun i => g (ix2 q i))
    (fun i => congrArg f (lhsIdx_eq D hlc hlb hln p q i))
    (fun i => congrArg g (rhsIdx_eq D hlc hrc hlb hrb hln hrn p q i))

end Cert.LibDotNT

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«140997_j44401371906483_1_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.PayloadAttention.lean ====
/-
  The two kernel bodies' arithmetic, read at one entry.

  The first body stores, at (k, d), the product of row k of its first block with column d of its second, times
  the scale word: the projected query.  The second body stores two blocks.  At (0, k, n) the first holds the softmax,
  along n, of the masked scores of row k: the score at (k, n) is row k of the projected block against key row n,
  kept where the loaded mask word is not zero and set to -inf elsewhere; the row maximum is folded from -inf, each
  entry is the exponential of its distance to the maximum, and the entries are divided by their sum.  At (0, k, d)
  the second holds that row of weights against column d of the keys.

  Every operation that is not entry by entry is read by one small lemma: a product of matrices into a zero block is
  the textbook sum over the contracted axis; a reduction along the columns is the fold or the sum over the row; a
  row statistic reshaped to a column and spread over the columns is read at its row; a leading unit axis dropped or
  added does not move an entry.  A change of format is the identity on the extended reals.
-/
import Idealize.ShloMosaic.Lib.ValueLayout
import Idealize.ShloMosaic.PureOps.Ideal.Laws
import proofs.«140997_j44401371906483_1_alg».proof.Proof.Attention
import proofs.«140997_j44401371906483_1_alg».proof.Proof.Gen.KernelIdeal.Skeleton
import proofs.«140997_j44401371906483_1_alg».proof.Proof.LibDotNT
import proofs.«140997_j44401371906483_1_alg».proof.Proof.LibPlainDot
import proofs.«140997_j44401371906483_1_alg».proof.Proof.LibColumnCast
import proofs.«140997_j44401371906483_1_alg».proof.Proof.LibColumnBroadcast

noncomputable section

open scoped BigOperators

open Idealize.ShloMosaic Idealize.ShloMosaic.ValueIdx

namespace Cert.KernelIdeal.PayloadValue

open Cert.KernelIdeal Cert.KernelIdeal.Gen

/-! ## Products of matrices into a zero block -/

/-- An [M, K] by [K, N] product into the zero block, at (p, q): the sum over i of left (p, i) times right (i, q). -/
theorem matmul_plain_zero {M K N : ℕ} {φ₁ φ₂ : FTy} (D : DotDims ⟨2, ![M, K]⟩ ⟨2, ![K, N]⟩ ⟨2, ![M, N]⟩)
    (hlc : D.lhsContracting = [1]) (hrc : D.rhsContracting = [0]) (hlb : D.lhsBatch = [])
    (hrb : D.rhsBatch = []) (hln : D.lhsNonContracting = [0]) (hrn : D.rhsNonContracting = [1])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ i : Fin K, l (ix2 p i) * r (ix2 i q) :=
  (Ideal.matmul_constant_zero_apply D none l r (ix2 p q)).trans
    (Cert.LibPlainDot.sum_plain D hlc hrc hlb hrb hln hrn l r p q)

/-- An [M, K] by [N, K] product contracting both second axes into the zero block, at (p, q): the sum over i of
    left (p, i) times right (q, i). -/
theorem matmul_nt_zero {M K N : ℕ} {φ₁ φ₂ : FTy} (D : DotDims ⟨2, ![M, K]⟩ ⟨2, ![N, K]⟩ ⟨2, ![M, N]⟩)
    (hlc : D.lhsContracting = [1]) (hrc : D.rhsContracting = [1]) (hlb : D.lhsBatch = [])
    (hrb : D.rhsBatch = []) (hln : D.lhsNonContracting = [0]) (hrn : D.rhsNonContracting = [0])
    (l : FVec Ideal ⟨2, ![M, K]⟩ φ₁) (r : FVec Ideal ⟨2, ![N, K]⟩ φ₂) (p : Fin M) (q : Fin N) :
    matmul D none l r (constant (F := Ideal) ⟨2, ![M, N]⟩ .f32 0x00000000#32) (ix2 p q)
      = ∑ i : Fin K, l (ix2 p i) * r (ix2 q i) :=
  (Ideal.matmul_constant_zero_apply D none l r (ix2 p q)).trans
    (Cert.LibDotNT.sum_nt D hlc hrc hlb hrb hln hrn l r p q)

/-! ## The first body: the projected query -/

/-- The first body's stored value at (k, d) is the projected, scaled query there. -/
theorem proj_payload (x0 : Vec Ideal S512x1024 .bf16) (x1 : Vec Ideal S1024x1024 .bf16) (k : Fin 512) (d : Fin 1024) :
    k0_pay1 (F := Ideal) x0 x1 (ix2 k d)
      = Cert.Attention.proj (fun k i => x0 (ix2 k i)) (fun i d => x1 (ix2 i d)) k d := by
  unfold k0_pay1 Cert.Attention.proj
  simp only [truncf_apply, mulf_apply, broadcast_apply, shapeCast_self]
  rw [matmul_plain_zero dot_S512x1024_S1024x1024_S512x1024_1_0_0_1_n_n rfl rfl rfl rfl rfl rfl]
  rfl

/-! ## A row statistic kept as a column and spread over the columns -/

/-- An [a] array reshaped to the column [a, 1] and spread over b columns reads, at (p, c), the array at p. -/
theorem keepdims_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix1 p) :=
  (Cert.Lib.broadcastTo_a1_ab_apply _ h2 p c).trans (Cert.Lib.shapeCast_a_a1_apply v h1 p 0)

/-! ## Reductions along the columns of a [512, 2048] block -/

/-- The entry a reduction along the columns reads for row k at position n is (k, n). -/
theorem lift_cols (h : S512x2048.Reduces [1] S512) (k : Fin 512) (n : Fin 2048) :
    h.lift (ix1 k) n = ix2 k n := by
  funext ax
  match ax with
  | ⟨0, _⟩ => exact Fin.ext rfl
  | ⟨1, _⟩ => exact Fin.ext rfl

/-- The maximum along the columns, folded from -inf, at row k: the maximum of row k. -/
theorem rowmax_apply (s : FVec Ideal S512x2048 .f32) (h : S512x2048.Reduces [1] S512) (hφ : FKind.Formats .f32)
    (hacc : (0xFF800000#32 : BitVec 32) = FKind.maximumf.neutral .f32 hφ) (k : Fin 512) :
    multiReduction .maximumf [1] S512 s 0xFF800000#32 h hφ hacc (ix1 k)
      = Cert.Attention.rowMax (fun n => s (ix2 k n)) := by
  refine (Ideal.multiReduction_maximumf_single s 0xFF800000#32 h hφ hacc (ix1 k)).trans ?_
  have e : (s ∘ h.lift (ix1 k)) = fun n : Fin 2048 => s (ix2 k n) :=
    funext fun n => congrArg s (lift_cols h k n)
  exact congrArg (fun r : Fin 2048 → EReal => (Finset.univ : Finset (Fin 2048)).fold max Cert.Attention.negInf r) e

/-- The sum along the columns at row k: the sum of row k. -/
theorem rowsum_apply (e : FVec Ideal S512x2048 .f32) (h : S512x2048.Reduces [1] S512) (hφ : FKind.Formats .f32)
    (hacc : (0x00000000#32 : BitVec 32) = FKind.add.neutral .f32 hφ) (k : Fin 512) :
    multiReduction .add [1] S512 e 0x00000000#32 h hφ hacc (ix1 k) = ∑ n : Fin 2048, e (ix2 k n) := by
  refine (Ideal.multiReduction_add_single e 0x00000000#32 h hφ hacc (ix1 k)).trans ?_
  exact Finset.sum_congr rfl fun n _ => congrArg e (lift_cols h k n)

/-! ## The softmax along the columns, as the second body writes it -/

/-- Each entry's exponential of its distance to its row's maximum. -/
def expBlock (s : FVec Ideal S512x2048 .f32) : FVec Ideal S512x2048 .f32 :=
  exp (subf s (broadcastTo S512x2048
    (shapeCast S512x1 (multiReduction .maximumf [1] S512 s 0xFF800000#32 reduces_S512x2048_S512 (.inl rfl) rfl)
      shapeCasts_S512_S512x1) broadcasts_S512x1_S512x2048))

/-- Those exponentials over their row's sum. -/
def softmaxBlock (s : FVec Ideal S512x2048 .f32) : FVec Ideal S512x2048 .f32 :=
  divf (expBlock s) (broadcastTo S512x2048
    (shapeCast S512x1 (multiReduction .add [1] S512 (expBlock s) 0x00000000#32 reduces_S512x2048_S512 (.inl rfl) rfl)
      shapeCasts_S512_S512x1) broadcasts_S512x1_S512x2048)

/-- The exponentials at (k, n). -/
theorem expBlock_apply (s : FVec Ideal S512x2048 .f32) (k : Fin 512) (n : Fin 2048) :
    expBlock s (ix2 k n) = Ideal.exp (s (ix2 k n) - Cert.Attention.rowMax (fun n => s (ix2 k n))) := by
  unfold expBlock
  refine congrArg (fun m => Ideal.exp (s (ix2 k n) - m)) ?_
  exact (keepdims_apply _ _ _ k n).trans (rowmax_apply s _ _ _ k)

/-- The block at (k, n) is the softmax of row k at n. -/
theorem softmaxBlock_apply (s : FVec Ideal S512x2048 .f32) (k : Fin 512) (n : Fin 2048) :
    softmaxBlock s (ix2 k n) = Cert.Attention.softmaxRow (fun n => s (ix2 k n)) n := by
  unfold softmaxBlock Cert.Attention.softmaxRow
  refine (divf_apply _ _ _).trans (congrArg₂ Ideal.div (expBlock_apply s k n) ?_)
  exact (keepdims_apply _ _ _ k n).trans
    ((rowsum_apply _ _ _ _ k).trans (Finset.sum_congr rfl fun n' _ => expBlock_apply s k n'))

/-! ## The second body: masked scores, weights, output -/

/-- The masked scores: row k of the first block against key row n where the mask word is not zero, -inf elsewhere. -/
def maskedBlock (x0 : Vec Ideal S512x1024 .bf16) (x1 : Vec Ideal S1x2048x1024 .bf16) (x2 : Vec Ideal S1x512x2048 .i32) :
    FVec Ideal S512x2048 .f32 :=
  select (cmpi .ne (shapeCast S512x2048 x2 shapeCasts_S1x512x2048_S512x2048 : IVec S512x2048 32) (constantI S512x2048 32 0#32))
    (matmul dot_S512x1024_S2048x1024_S512x2048_1_1_0_0_n_n none
      (shapeCast S512x1024 x0 shapeCasts_S512x1024_S512x1024 : FVec Ideal S512x1024 .bf16) (k1_pay1 x1)
      (constant S512x2048 .f32 0x00000000#32))
    (broadcast S512x2048 (Scalar.ofBits .f32 0xFF800000#32 : Ideal .f32))

/-- The second body's softmax block is the softmax of the masked scores. -/
theorem k1_pay2_eq (x0 : Vec Ideal S512x1024 .bf16) (x1 : Vec Ideal S1x2048x1024 .bf16) (x2 : Vec Ideal S1x512x2048 .i32) :
    k1_pay2 (F := Ideal) x0 x1 x2 = softmaxBlock (maskedBlock x0 x1 x2) := rfl

/-- The loaded key block with its unit axis dropped, at (n, d). -/
theorem k1_pay1_apply (x1 : Vec Ideal S1x2048x1024 .bf16) (n : Fin 2048) (d : Fin 1024) :
    k1_pay1 (F := Ideal) x1 (ix2 n d) = x1 (ix3 (0 : Fin 1) n d) :=
  shapeCast_1ab_ab_apply x1 _ n d

/-- The masked scores at (k, n). -/
theorem maskedBlock_apply (x0 : Vec Ideal S512x1024 .bf16) (x1 : Vec Ideal S1x2048x1024 .bf16) (x2 : Vec Ideal S1x512x2048 .i32)
    (k : Fin 512) (n : Fin 2048) :
    maskedBlock x0 x1 x2 (ix2 k n)
      = Cert.Attention.maskRow (fun n => IntOp.cmpi .ne (x2 (ix3 (0 : Fin 1) k n)) 0#32)
          (Cert.Attention.scoreRow (fun d => x0 (ix2 k d)) (fun n d => x1 (ix3 (0 : Fin 1) n d))) n := by
  unfold maskedBlock Cert.Attention.maskRow Cert.Attention.scoreRow
  refine (select_apply _ _ _ _).trans ?_
  refine congrArg₂ (fun c v => Scalar.select c v Cert.Attention.negInf) ?_ ?_
  · exact congrArg (fun w => IntOp.cmpi .ne w 0#32) (shapeCast_1ab_ab_apply x2 _ k n)
  · refine (matmul_nt_zero dot_S512x1024_S2048x1024_S512x2048_1_1_0_0_n_n rfl rfl rfl rfl rfl rfl _ _ k n).trans ?_
    refine Finset.sum_congr rfl fun d _ => ?_
    rw [shapeCast_self, k1_pay1_apply]

/-- The second body's softmax block at (k, n) is the attention weight of row k at n. -/
theorem k1_pay2_apply (x0 : Vec Ideal S512x1024 .bf16) (x1 : Vec Ideal S1x2048x1024 .bf16) (x2 : Vec Ideal S1x512x2048 .i32)
    (k : Fin 512) (n : Fin 2048) :
    k1_pay2 (F := Ideal) x0 x1 x2 (ix2 k n)
      = Cert.Attention.attRow (fun d => x0 (ix2 k d)) (fun n d => x1 (ix3 (0 : Fin 1) n d))
          (fun n => IntOp.cmpi .ne (x2 (ix3 (0 : Fin 1) k n)) 0#32) n := by
  rw [k1_pay2_eq, softmaxBlock_apply]
  unfold Cert.Attention.attRow
  exact congrArg (fun r => Cert.Attention.softmaxRow r n) (funext fun n' => maskedBlock_apply x0 x1 x2 k n')

/-- The first stored block at (0, k, n) is the attention weight of row k at n. -/
theorem att_payload (x0 : Vec Ideal S512x1024 .bf16) (x1 : Vec Ideal S1x2048x1024 .bf16) (x2 : Vec Ideal S1x512x2048 .i32)
    (k : Fin 512) (n : Fin 2048) :
    k1_pay3 (F := Ideal) x0 x1 x2 (ix3 (0 : Fin 1) k n)
      = Cert.Attention.attRow (fun d => x0 (ix2 k d)) (fun n d => x1 (ix3 (0 : Fin 1) n d))
          (fun n => IntOp.cmpi .ne (x2 (ix3 (0 : Fin 1) k n)) 0#32) n := by
  unfold k1_pay3
  exact (shapeCast_ab_1ab_apply _ _ (0 : Fin 1) k n).trans (k1_pay2_apply x0 x1 x2 k n)

/-- The second stored block at (0, k, d) is row k of the weights against column d of the keys. -/
theorem out_payload (x0 : Vec Ideal S512x1024 .bf16) (x1 : Vec Ideal S1x2048x1024 .bf16) (x2 : Vec Ideal S1x512x2048 .i32)
    (k : Fin 512) (d : Fin 1024) :
    k1_pay4 (F := Ideal) x0 x1 x2 (ix3 (0 : Fin 1) k d)
      = Cert.Attention.outRow
          (Cert.Attention.attRow (fun d => x0 (ix2 k d)) (fun n d => x1 (ix3 (0 : Fin 1) n d))
            (fun n => IntOp.cmpi .ne (x2 (ix3 (0 : Fin 1) k n)) 0#32))
          (fun n d => x1 (ix3 (0 : Fin 1) n d)) d := by
  unfold k1_pay4 Cert.Attention.outRow
  refine (shapeCast_ab_1ab_apply _ _ (0 : Fin 1) k d).trans ?_
  refine (matmul_plain_zero dot_S512x2048_S2048x1024_S512x1024_1_0_0_1_n_n rfl rfl rfl rfl rfl rfl _ _ k d).trans ?_
  refine Finset.sum_congr rfl fun n _ => ?_
  rw [truncf_apply, k1_pay2_apply, k1_pay1_apply]

end Cert.KernelIdeal.PayloadValue

end
-- ==== Proof.Blocks.lean ====
/-
  The two kernels' blocks, read by coordinates.

  The projection kernel has one grid point: its three windows are whole arrays. The attention kernel has sixteen grid
  points, one per batch b: its windows are the whole projected query, and batch b's slab [1, ·, ·] of the keys, of the
  mask words, of the weights and of the output. So entry (0, r, s) of a slab at point b is entry (b, r, s) of its
  array, each written-back slab is the body's stored value of the point's input slabs, and the sixteen slabs of an
  output cover it.
-/
import proofs.«140997_j44401371906483_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The projection kernel: one point, whole arrays -/

/-- Every window of the projection kernel sits at block (0, 0). -/
theorem index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the body's stored value of the two input blocks. -/
theorem flushed0_2 (c : Dev nD) (t : Fin cfg0.N) :
    (dat0 V c).flushed 2 t = k0_pay1 (iblk0 V c 0 t) (iblk0 V c 1 t) := by
  show (cfg0.win 2).cut (grid0.coords t) ((dat0 V c).after 2 t) = _
  rw [after0_2]
  unfold out0_2
  rw [View.canon_unit_zero hz2]
  simp only [View.ld_unit_zero (S := S512x1024) hz2, View.ld_unit_zero (S := S1024x1024) hz2]
  rfl

/-- The query window's block is the query array. -/
theorem iblk0_0_apply (c : Dev nD) (t : Fin cfg0.N) (k : Fin 512) (i : Fin 1024) :
    (iblk0 V c 0 t : Vec F S512x1024 .bf16) (ix2 k i) = (V c main_v0 : S512x1024.Idx → Elt F .bf16) (ix2 k i) := by
  obtain ⟨e0, e1, -⟩ := index0 t
  unfold iblk0
  rw [View.read_apply]
  show V c main_v0 _ = V c main_v0 _
  congr 1
  funext a
  apply Fin.ext
  match a with
  | ⟨0, _⟩ => show win0_0.index t (0 : Fin 2) * 512 + 1 * k.val = k.val; omega
  | ⟨1, _⟩ => show win0_0.index t (1 : Fin 2) * 1024 + 1 * i.val = i.val; omega

/-- The weight window's block is the weight array. -/
theorem iblk0_1_apply (c : Dev nD) (t : Fin cfg0.N) (i : Fin 1024) (d : Fin 1024) :
    (iblk0 V c 1 t : Vec F S1024x1024 .bf16) (ix2 i d) = (V c main_v1 : S1024x1024.Idx → Elt F .bf16) (ix2 i d) := by
  obtain ⟨-, -, e0, e1, -⟩ := index0 t
  unfold iblk0
  rw [View.read_apply]
  show V c main_v1 _ = V c main_v1 _
  congr 1
  funext a
  apply Fin.ext
  match a with
  | ⟨0, _⟩ => show win0_1.index t (0 : Fin 2) * 1024 + 1 * i.val = i.val; omega
  | ⟨1, _⟩ => show win0_1.index t (1 : Fin 2) * 1024 + 1 * d.val = d.val; omega

/-- Entry (k, d) of the written-back block is entry (k, d) of the projected array. -/
theorem emb0_2 (t : Fin cfg0.N) (k : Fin 512) (d : Fin 1024) :
    ((cfg0.win 2).blk t).view.emb (ix2 k d) = (ix2 k d : S512x1024.Idx) := by
  obtain ⟨-, -, -, -, e0, e1⟩ := index0 t
  funext a
  apply Fin.ext
  match a with
  | ⟨0, _⟩ => show win0_2.index t (0 : Fin 2) * 512 + 1 * k.val = k.val; omega
  | ⟨1, _⟩ => show win0_2.index t (1 : Fin 2) * 1024 + 1 * d.val = d.val; omega

/-- An index of the projected array is in the point's block iff each coordinate is in the block's range. -/
theorem mem_blk0_2 (t : Fin cfg0.N) (i : S512x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- The one block covers the projected array. -/
theorem cover0_2 (i : S512x1024.Idx) :
    ∃ t : Fin cfg0.N, (cfg0.win 2).flush t = true ∧ i ∈ ((cfg0.win 2).blk t).view.set := by
  refine ⟨t0_0, flush0_2 t0_0, ?_⟩
  obtain ⟨-, -, -, -, e0, e1⟩ := index0 t0_0
  rw [mem_blk0_2]
  intro a
  have h0 : (i 0).val < 512 := (i 0).isLt
  have h1 : (i 1).val < 1024 := (i 1).isLt
  match a with
  | ⟨0, _⟩ => show win0_2.index t0_0 (0 : Fin 2) * 512 ≤ (i 0).val ∧ (i 0).val < win0_2.index t0_0 (0 : Fin 2) * 512 + 512; omega
  | ⟨1, _⟩ => show win0_2.index t0_0 (1 : Fin 2) * 1024 ≤ (i 1).val ∧ (i 1).val < win0_2.index t0_0 (1 : Fin 2) * 1024 + 1024; omega

/-! ## The attention kernel: one point per batch -/

/-- The batch a grid point of the attention kernel works on. -/
def batchOf (t : Fin cfg1.N) : Fin 16 := ⟨t.val, by have h := t.isLt; have e : cfg1.N = 16 := N_1; omega⟩

/-- The projected query's window sits at block (0, 0); every other window at the point's batch. -/
theorem index1 : ∀ t : Fin cfg1.N,
    win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- The weights' slab a point writes back is the body's first stored value of the point's input blocks. -/
theorem flushed1_3 (c : Dev nD) (t : Fin cfg1.N) :
    (dat1 V c).flushed 3 t = k1_pay3 (iblk1 V c 0 t) (iblk1 V c 1 t) (iblk1 V c 2 t) := by
  show (cfg1.win 3).cut (grid1.coords t) ((dat1 V c).after 3 t) = _
  rw [after1_3]
  unfold out1_3
  rw [View.canon_unit_zero hz3]
  simp only [View.ld_unit_zero (S := S512x1024) hz2, View.ld_unit_zero (S := S1x2048x1024) hz3, View.ld_unit_zero (S := S1x512x2048) hz3]
  rfl

/-- The output's slab a point writes back is the body's second stored value of the point's input blocks. -/
theorem flushed1_4 (c : Dev nD) (t : Fin cfg1.N) :
    (dat1 V c).flushed 4 t = k1_pay4 (iblk1 V c 0 t) (iblk1 V c 1 t) (iblk1 V c 2 t) := by
  show (cfg1.win 4).cut (grid1.coords t) ((dat1 V c).after 4 t) = _
  rw [after1_4]
  unfold out1_4
  rw [View.canon_unit_zero hz3]
  simp only [View.ld_unit_zero (S := S512x1024) hz2, View.ld_unit_zero (S := S1x2048x1024) hz3, View.ld_unit_zero (S := S1x512x2048) hz3]
  rfl

/-- The projected query's block is the projected array, at every point. -/
theorem iblk1_0_apply (c : Dev nD) (t : Fin cfg1.N) (k : Fin 512) (d : Fin 1024) :
    (iblk1 V c 0 t : Vec F S512x1024 .bf16) (ix2 k d) = (V c main_v3 : S512x1024.Idx → Elt F .bf16) (ix2 k d) := by
  obtain ⟨e0, e1, -⟩ := index1 t
  unfold iblk1
  rw [View.read_apply]
  show V c main_v3 _ = V c main_v3 _
  congr 1
  funext a
  apply Fin.ext
  match a with
  | ⟨0, _⟩ => show win1_0.index t (0 : Fin 2) * 512 + 1 * k.val = k.val; omega
  | ⟨1, _⟩ => show win1_0.index t (1 : Fin 2) * 1024 + 1 * d.val = d.val; omega

/-- The keys' slab at a point is the point's batch of the keys. -/
theorem iblk1_1_apply (c : Dev nD) (t : Fin cfg1.N) (n : Fin 2048) (d : Fin 1024) :
    (iblk1 V c 1 t : Vec F S1x2048x1024 .bf16) (ix3 (0 : Fin 1) n d)
      = (V c main_v2 : S16x2048x1024.Idx → Elt F .bf16) (ix3 (batchOf t) n d) := by
  obtain ⟨-, -, e0, e1, e2, -⟩ := index1 t
  unfold iblk1
  rw [View.read_apply]
  show V c main_v2 _ = V c main_v2 _
  congr 1
  funext a
  apply Fin.ext
  match a with
  | ⟨0, _⟩ => show win1_1.index t (0 : Fin 3) * 1 + 1 * 0 = t.val; omega
  | ⟨1, _⟩ => show win1_1.index t (1 : Fin 3) * 2048 + 1 * n.val = n.val; omega
  | ⟨2, _⟩ => show win1_1.index t (2 : Fin 3) * 1024 + 1 * d.val = d.val; omega

/-- The mask words' slab at a point is the point's batch of the mask words. -/
theorem iblk1_2_apply (c : Dev nD) (t : Fin cfg1.N) (k : Fin 512) (n : Fin 2048) :
    (iblk1 V c 2 t : Vec F S1x512x2048 .i32) (ix3 (0 : Fin 1) k n)
      = (V c main_v4 : S16x512x2048.Idx → Elt F .i32) (ix3 (batchOf t) k n) := by
  obtain ⟨-, -, -, -, -, e0, e1, e2, -⟩ := index1 t
  unfold iblk1
  rw [View.read_apply]
  show V c main_v4 _ = V c main_v4 _
  congr 1
  funext a
  apply Fin.ext
  match a with
  | ⟨0, _⟩ => show win1_2.index t (0 : Fin 3) * 1 + 1 * 0 = t.val; omega
  | ⟨1, _⟩ => show win1_2.index t (1 : Fin 3) * 512 + 1 * k.val = k.val; omega
  | ⟨2, _⟩ => show win1_2.index t (2 : Fin 3) * 2048 + 1 * n.val = n.val; omega

/-- Entry (0, k, n) of the weights' slab at a point is entry (b, k, n) of the weights, b the point's batch. -/
theorem emb1_3 (t : Fin cfg1.N) (k : Fin 512) (n : Fin 2048) :
    ((cfg1.win 3).blk t).view.emb (ix3 (0 : Fin 1) k n) = (ix3 (batchOf t) k n : S16x512x2048.Idx) := by
  obtain ⟨-, -, -, -, -, -, -, -, e0, e1, e2, -⟩ := index1 t
  funext a
  apply Fin.ext
  match a with
  | ⟨0, _⟩ => show win1_3.index t (0 : Fin 3) * 1 + 1 * 0 = t.val; omega
  | ⟨1, _⟩ => show win1_3.index t (1 : Fin 3) * 512 + 1 * k.val = k.val; omega
  | ⟨2, _⟩ => show win1_3.index t (2 : Fin 3) * 2048 + 1 * n.val = n.val; omega

/-- Entry (0, k, d) of the output's slab at a point is entry (b, k, d) of the output, b the point's batch. -/
theorem emb1_4 (t : Fin cfg1.N) (k : Fin 512) (d : Fin 1024) :
    ((cfg1.win 4).blk t).view.emb (ix3 (0 : Fin 1) k d) = (ix3 (batchOf t) k d : S16x512x1024.Idx) := by
  obtain ⟨-, -, -, -, -, -, -, -, -, -, -, e0, e1, e2⟩ := index1 t
  funext a
  apply Fin.ext
  match a with
  | ⟨0, _⟩ => show win1_4.index t (0 : Fin 3) * 1 + 1 * 0 = t.val; omega
  | ⟨1, _⟩ => show win1_4.index t (1 : Fin 3) * 512 + 1 * k.val = k.val; omega
  | ⟨2, _⟩ => show win1_4.index t (2 : Fin 3) * 1024 + 1 * d.val = d.val; omega

/-- An index of the weights is in a point's slab iff each coordinate is in the slab's range. -/
theorem mem_blk1_3 (t : Fin cfg1.N) (i : S16x512x2048.Idx) :
    i ∈ ((cfg1.win 3).blk t).view.set ↔ ∀ a : Fin 3, win1_3.index t a * S1x512x2048.size a ≤ (i a).val ∧ (i a).val < win1_3.index t a * S1x512x2048.size a + S1x512x2048.size a := by
  show i ∈ ((View.whole main_v5_0).slice (win1_3.rect t)).set ↔ _
  rw [View.set_slice_whole, Rect.mem_set_unit]
  exact Iff.rfl

/-- An index of the output is in a point's slab iff each coordinate is in the slab's range. -/
theorem mem_blk1_4 (t : Fin cfg1.N) (i : S16x512x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v5_1).slice (win1_4.rect t)).set ↔ _
  rw [View.set_slice_whole, Rect.mem_set_unit]
  exact Iff.rfl

/-- The point of batch b. -/
def pointOf (b : Fin 16) : Fin cfg1.N := ⟨b.val, by have h := b.isLt; have e : cfg1.N = 16 := N_1; omega⟩

/-- Entry (b, k, n) of the weights is in the slab of batch b's point. -/
theorem cover1_3 (i : S16x512x2048.Idx) :
    ∃ t : Fin cfg1.N, (cfg1.win 3).flush t = true ∧ i ∈ ((cfg1.win 3).blk t).view.set := by
  refine ⟨pointOf (i 0), flush1_3 _, ?_⟩
  obtain ⟨-, -, -, -, -, -, -, -, e0, e1, e2, -⟩ := index1 (pointOf (i 0))
  have et : (pointOf (i 0)).val = (i 0).val := rfl
  rw [mem_blk1_3]
  intro a
  have h1 : (i 1).val < 512 := (i 1).isLt
  have h2 : (i 2).val < 2048 := (i 2).isLt
  match a with
  | ⟨0, _⟩ => show win1_3.index (pointOf (i 0)) (0 : Fin 3) * 1 ≤ (i 0).val ∧ (i 0).val < win1_3.index (pointOf (i 0)) (0 : Fin 3) * 1 + 1; omega
  | ⟨1, _⟩ => show win1_3.index (pointOf (i 0)) (1 : Fin 3) * 512 ≤ (i 1).val ∧ (i 1).val < win1_3.index (pointOf (i 0)) (1 : Fin 3) * 512 + 512; omega
  | ⟨2, _⟩ => show win1_3.index (pointOf (i 0)) (2 : Fin 3) * 2048 ≤ (i 2).val ∧ (i 2).val < win1_3.index (pointOf (i 0)) (2 : Fin 3) * 2048 + 2048; omega

/-- Entry (b, k, d) of the output is in the slab of batch b's point. -/
theorem cover1_4 (i : S16x512x1024.Idx) :
    ∃ t : Fin cfg1.N, (cfg1.win 4).flush t = true ∧ i ∈ ((cfg1.win 4).blk t).view.set := by
  refine ⟨pointOf (i 0), flush1_4 _, ?_⟩
  obtain ⟨-, -, -, -, -, -, -, -, -, -, -, e0, e1, e2⟩ := index1 (pointOf (i 0))
  have et : (pointOf (i 0)).val = (i 0).val := rfl
  rw [mem_blk1_4]
  intro a
  have h1 : (i 1).val < 512 := (i 1).isLt
  have h2 : (i 2).val < 1024 := (i 2).isLt
  match a with
  | ⟨0, _⟩ => show win1_4.index (pointOf (i 0)) (0 : Fin 3) * 1 ≤ (i 0).val ∧ (i 0).val < win1_4.index (pointOf (i 0)) (0 : Fin 3) * 1 + 1; omega
  | ⟨1, _⟩ => show win1_4.index (pointOf (i 0)) (1 : Fin 3) * 512 ≤ (i 1).val ∧ (i 1).val < win1_4.index (pointOf (i 0)) (1 : Fin 3) * 512 + 512; omega
  | ⟨2, _⟩ => show win1_4.index (pointOf (i 0)) (2 : Fin 3) * 1024 ≤ (i 2).val ∧ (i 2).val < win1_4.index (pointOf (i 0)) (2 : Fin 3) * 1024 + 1024; omega

end Cert.KernelIdeal.Blocks

end
-- ==== Proof.Entry.lean ====
/-
  What each kernel finds in its windows' arrays, and where its results go.

  Before the projection kernel the host narrows the query, the weight and the keys to bf16 (at the ideal values a
  change of format is the identity); between the two kernels it widens the one-bit mask to 32-bit words. Nothing else
  writes those buffers, so the projection kernel finds the narrowed query and weight, and the attention kernel finds
  the projection kernel's folded write-backs, the narrowed keys and the widened mask. The two result buffers end at
  the attention kernel's folded write-backs.
-/
import proofs.«140997_j44401371906483_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The projection kernel finds the query narrowed. -/
theorem V1_v0 (c : Dev nD) :
    (V1 m ρ c main_v0 : S512x1024.Idx → Elt F .bf16) = truncf .bf16 (m ((c : Thread nD τ).loc main_arg0)) bitsLt_bf16_f32 := by
  show StableHlo.after hostOps0 (W0 m ρ c) (Proc.devRef .tc main_v0) = _
  after_results

/-- The projection kernel finds the weight narrowed. -/
theorem V1_v1 (c : Dev nD) :
    (V1 m ρ c main_v1 : S1024x1024.Idx → Elt F .bf16) = truncf .bf16 (m ((c : Thread nD τ).loc main_arg2)) bitsLt_bf16_f32 := by
  show StableHlo.after hostOps0 (W0 m ρ c) (Proc.devRef .tc main_v1) = _
  after_results

/-- The attention kernel finds the keys narrowed: the projection kernel and the mask's widening leave them alone. -/
theorem V3_v2 (c : Dev nD) :
    (V3 m ρ c main_v2 : S16x2048x1024.Idx → Elt F .bf16) = truncf .bf16 (m ((c : Thread nD τ).loc main_arg1)) bitsLt_bf16_f32 := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results

/-- The attention kernel finds the mask widened to words. -/
theorem V3_v4 (c : Dev nD) :
    (V3 m ρ c main_v4 : S16x512x2048.Idx → BitVec 32) = extui 32 (m ((c : Thread nD τ).loc main_arg3)) natLt_1_32 := by
  show StableHlo.after hostOps1 (W2 m ρ c) (Proc.devRef .tc main_v4) = _
  after_results
  rw [W2_of_ne m ρ c main_arg3 (by decide)]
  show extui 32 (StableHlo.after hostOps0 (W0 m ρ c) (Proc.devRef .tc main_arg3)) natLt_1_32 = _
  after_results

/-- The attention kernel finds, as its projected query, the projection kernel's write-backs folded over the array. -/
theorem V3_v3 (c : Dev nD) :
    (V3 m ρ c main_v3 : S512x1024.Idx → Elt F .bf16) = (dat0 (V1 m ρ) c).arrAt 2 cfg0.N := by
  show StableHlo.after hostOps1 (W2 m ρ c) (Proc.devRef .tc main_v3) = _
  after_results
  exact W2_arr m ρ c 2

/-- The weights' buffer ends at the attention kernel's write-backs of its first output, folded over the array. -/
theorem W4_v5_0 (c : Dev nD) :
    W4 m ρ c (Proc.devRef .tc main_v5_0) = (dat1 (V3 m ρ) c).arrAt 3 cfg1.N := W4_arr m ρ c 3

/-- The output's buffer ends at the attention kernel's write-backs of its second output, folded over the array. -/
theorem W4_v5_1 (c : Dev nD) :
    W4 m ρ c (Proc.devRef .tc main_v5_1) = (dat1 (V3 m ρ) c).arrAt 4 cfg1.N := W4_arr m ρ c 4

end Cert.KernelIdeal.Entry

end
-- ==== Proof.KernelValue.lean ====
/-
  The two result arrays after the idealized kernel's run.

  The projection kernel's one write-back covers its array, and the body's stored value at (k, d) is row k of the query
  against column d of the weight, scaled: the array the attention kernel then reads as its projected query. At the
  point of batch b the attention kernel's stored values at (0, k, n) and (0, k, d) are the attention weights and the
  output of the point's blocks — the projected query, batch b of the keys, batch b of the mask words, a word tested
  against zero being the mask bit it was widened from —, entry (0, r, s) of a slab is entry (b, r, s) of its array,
  and the sixteen slabs cover each result array. So the weights' buffer ends at the attention weights, and the output's
  buffer at the attention output, of the four arguments.
-/
import proofs.«140997_j44401371906483_1_alg».proof.Proof.PayloadAttention
import proofs.«140997_j44401371906483_1_alg».proof.Proof.Attention
import proofs.«140997_j44401371906483_1_alg».proof.Proof.Blocks
import proofs.«140997_j44401371906483_1_alg».proof.Proof.Entry
import Idealize.ShloMosaic.Lib.Pipeline.Value
import Idealize.ShloMosaic.Lib.ValueIdx
import Idealize.ShloMosaic.Lib.Tactic

set_option maxRecDepth 16384

noncomputable section

namespace Cert.KernelIdeal.AttentionValue

open Cert.KernelIdeal Cert.KernelIdeal.Gen Cert.KernelIdeal.Blocks Cert.KernelIdeal.Entry Cert.KernelIdeal.PayloadValue
open Idealize.ShloMosaic Idealize.ShloMosaic.TcCoe Idealize.SL.Sem Idealize.ShloMosaic.ValueIdx
open Idealize.ShloMosaic.Pipeline (Dat)

/-- A mask bit widened to a word is nonzero exactly when the bit is set. -/
theorem bit_of_word (x : BitVec 1) : IntOp.cmpi .ne (x.setWidth 32) 0#32 = x := by
  rcases BitVec.eq_zero_or_eq_one x with rfl | rfl <;> rfl

/-- Equal rows give equal attention weights. -/
theorem att_congr {N D : Nat} {p p' : Fin D → EReal} {key key' : Fin N → Fin D → EReal} {mask mask' : Fin N → BitVec 1}
    (hp : p = p') (hk : key = key') (hm : mask = mask') (n : Fin N) :
    Cert.Attention.attRow p key mask n = Cert.Attention.attRow p' key' mask' n := by
  subst hp hk hm; rfl

/-- Equal rows give equal outputs. -/
theorem out_congr {N D : Nat} {p p' : Fin D → EReal} {key key' : Fin N → Fin D → EReal} {mask mask' : Fin N → BitVec 1}
    (hp : p = p') (hk : key = key') (hm : mask = mask') (d : Fin D) :
    Cert.Attention.outRow (Cert.Attention.attRow p key mask) key d
      = Cert.Attention.outRow (Cert.Attention.attRow p' key' mask') key' d := by
  subst hp hk hm; rfl

section Projection

variable (V : (c : Dev nD) → (b : Ref sig .tc) → Buf (Elt Ideal) ((c : Thread nD τ).loc b))

/-- The projection kernel's one write-back covers its result array: the array ends at the scaled product of the two
    arrays its windows read. -/
theorem projected (c : Dev nD) :
    (dat0 V c).arrAt 2 cfg0.N
      = (fun j : S512x1024.Idx => Cert.Attention.proj (fun k i => (V c main_v0 : S512x1024.Idx → EReal) (ix2 k i))
          (fun i d => (V c main_v1 : S1024x1024.Idx → EReal) (ix2 i d)) (j 0) (j 1)) := by
  refine (dat0 V c).arrAt_eq_of_cover 2 _ (fun t _ => ?_) cover0_2
  rw [flushed0_2]
  show (k0_pay1 (iblk0 V c 0 t) (iblk0 V c 1 t) : S512x1024.Idx → EReal)
    = fun j : S512x1024.Idx => (fun j : S512x1024.Idx => Cert.Attention.proj (fun k i => (V c main_v0 : S512x1024.Idx → EReal) (ix2 k i))
          (fun i d => (V c main_v1 : S1024x1024.Idx → EReal) (ix2 i d)) (j 0) (j 1)) (((cfg0.win 2).blk t).view.emb j)
  funext j
  obtain ⟨k, d, rfl⟩ : ∃ (k : Fin 512) (d : Fin 1024), j = ix2 k d := ⟨j 0, j 1, eq_ix2 j⟩
  rw [emb0_2]
  refine (proj_payload (iblk0 V c 0 t) (iblk0 V c 1 t) k d).trans ?_
  show Cert.Attention.proj _ _ k d = Cert.Attention.proj _ _ k d
  congr 1
  · funext k' i; exact iblk0_0_apply V c t k' i
  · funext i d'; exact iblk0_1_apply V c t i d'

end Projection

variable (m : (ℓ : Loc nD τ sig) → Buf (Elt Ideal) ℓ) (ρ : Dev nD → PrngReg)

/-- The attention kernel's projected query at (k, d): row k of the query against column d of the weight, scaled. -/
theorem projected_entry (c : Dev nD) (k : Fin 512) (d : Fin 1024) :
    (V3 m ρ c main_v3 : S512x1024.Idx → EReal) (ix2 k d)
      = Cert.Attention.proj (fun k i => (m ((c : Thread nD τ).loc main_arg0) : S512x1024.Idx → EReal) (ix2 k i))
          (fun i d => (m ((c : Thread nD τ).loc main_arg2) : S1024x1024.Idx → EReal) (ix2 i d)) k d := by
  rw [V3_v3, projected, V1_v0, V1_v1]
  rfl

/-- The attention kernel's keys are the keys. -/
theorem key_entry (c : Dev nD) (b : Fin 16) (n : Fin 2048) (d : Fin 1024) :
    (V3 m ρ c main_v2 : S16x2048x1024.Idx → EReal) (ix3 b n d)
      = (m ((c : Thread nD τ).loc main_arg1) : S16x2048x1024.Idx → EReal) (ix3 b n d) := by
  rw [V3_v2]
  rfl

/-- The attention kernel's mask words, tested against zero, are the mask bits. -/
theorem mask_entry (c : Dev nD) (b : Fin 16) (k : Fin 512) (n : Fin 2048) :
    IntOp.cmpi .ne ((V3 m ρ c main_v4 : S16x512x2048.Idx → BitVec 32) (ix3 b k n)) 0#32
      = (m ((c : Thread nD τ).loc main_arg3) : S16x512x2048.Idx → BitVec 1) (ix3 b k n) := by
  rw [V3_v4]
  exact bit_of_word _

/-- The sixteen slabs the attention kernel writes back cover the weights: the array ends at the attention weights of
    the four arguments. -/
theorem weights (c : Dev nD) :
    (dat1 (V3 m ρ) c).arrAt 3 cfg1.N
      = Cert.Attention.att (m ((c : Thread nD τ).loc main_arg0)) (m ((c : Thread nD τ).loc main_arg1))
          (m ((c : Thread nD τ).loc main_arg2)) (m ((c : Thread nD τ).loc main_arg3)) := by
  refine (dat1 (V3 m ρ) c).arrAt_eq_of_cover 3 _ (fun t _ => ?_) cover1_3
  rw [flushed1_3]
  show (k1_pay3 (iblk1 (V3 m ρ) c 0 t) (iblk1 (V3 m ρ) c 1 t) (iblk1 (V3 m ρ) c 2 t) : S1x512x2048.Idx → EReal)
    = fun j : S1x512x2048.Idx => Cert.Attention.att (m ((c : Thread nD τ).loc main_arg0)) (m ((c : Thread nD τ).loc main_arg1))
          (m ((c : Thread nD τ).loc main_arg2)) (m ((c : Thread nD τ).loc main_arg3)) (((cfg1.win 3).blk t).view.emb j)
  funext j
  obtain ⟨z, k, n, rfl⟩ : ∃ (z : Fin 1) (k : Fin 512) (n : Fin 2048), j = ix3 z k n := ⟨j 0, j 1, j 2, eq_ix3 j⟩
  obtain rfl : z = 0 := Subsingleton.elim _ _
  rw [emb1_3]
  refine (att_payload (iblk1 (V3 m ρ) c 0 t) (iblk1 (V3 m ρ) c 1 t) (iblk1 (V3 m ρ) c 2 t) k n).trans ?_
  have hp : (fun d' : Fin 1024 => (iblk1 (V3 m ρ) c 0 t : Vec Ideal S512x1024 .bf16) (ix2 k d'))
      = Cert.Attention.proj (fun k i => (m ((c : Thread nD τ).loc main_arg0) : S512x1024.Idx → EReal) (ix2 k i))
          (fun i d => (m ((c : Thread nD τ).loc main_arg2) : S1024x1024.Idx → EReal) (ix2 i d)) k :=
    funext fun d' => (iblk1_0_apply (V3 m ρ) c t k d').trans (projected_entry m ρ c k d')
  have hkey : (fun (n' : Fin 2048) (d' : Fin 1024) => (iblk1 (V3 m ρ) c 1 t : Vec Ideal S1x2048x1024 .bf16) (ix3 (0 : Fin 1) n' d'))
      = fun n' d' => (m ((c : Thread nD τ).loc main_arg1) : S16x2048x1024.Idx → EReal) (ix3 (batchOf t) n' d') :=
    funext fun n' => funext fun d' => (iblk1_1_apply (V3 m ρ) c t n' d').trans (key_entry m ρ c (batchOf t) n' d')
  have hmask : (fun n' : Fin 2048 => IntOp.cmpi .ne ((iblk1 (V3 m ρ) c 2 t : Vec Ideal S1x512x2048 .i32) (ix3 (0 : Fin 1) k n')) 0#32)
      = fun n' => (m ((c : Thread nD τ).loc main_arg3) : S16x512x2048.Idx → BitVec 1) (ix3 (batchOf t) k n') :=
    funext fun n' => (congrArg (fun w => IntOp.cmpi .ne w 0#32) (iblk1_2_apply (V3 m ρ) c t k n')).trans (mask_entry m ρ c (batchOf t) k n')
  exact att_congr hp hkey hmask n

/-- Likewise the output: the array ends at the attention output of the four arguments. -/
theorem output (c : Dev nD) :
    (dat1 (V3 m ρ) c).arrAt 4 cfg1.N
      = Cert.Attention.out (m ((c : Thread nD τ).loc main_arg0)) (m ((c : Thread nD τ).loc main_arg1))
          (m ((c : Thread nD τ).loc main_arg2)) (m ((c : Thread nD τ).loc main_arg3)) := by
  refine (dat1 (V3 m ρ) c).arrAt_eq_of_cover 4 _ (fun t _ => ?_) cover1_4
  rw [flushed1_4]
  show (k1_pay4 (iblk1 (V3 m ρ) c 0 t) (iblk1 (V3 m ρ) c 1 t) (iblk1 (V3 m ρ) c 2 t) : S1x512x1024.Idx → EReal)
    = fun j : S1x512x1024.Idx => Cert.Attention.out (m ((c : Thread nD τ).loc main_arg0)) (m ((c : Thread nD τ).loc main_arg1))
          (m ((c : Thread nD τ).loc main_arg2)) (m ((c : Thread nD τ).loc main_arg3)) (((cfg1.win 4).blk t).view.emb j)
  funext j
  obtain ⟨z, k, d, rfl⟩ : ∃ (z : Fin 1) (k : Fin 512) (d : Fin 1024), j = ix3 z k d := ⟨j 0, j 1, j 2, eq_ix3 j⟩
  obtain rfl : z = 0 := Subsingleton.elim _ _
  rw [emb1_4]
  refine (out_payload (iblk1 (V3 m ρ) c 0 t) (iblk1 (V3 m ρ) c 1 t) (iblk1 (V3 m ρ) c 2 t) k d).trans ?_
  have hp : (fun d' : Fin 1024 => (iblk1 (V3 m ρ) c 0 t : Vec Ideal S512x1024 .bf16) (ix2 k d'))
      = Cert.Attention.proj (fun k i => (m ((c : Thread nD τ).loc main_arg0) : S512x1024.Idx → EReal) (ix2 k i))
          (fun i d => (m ((c : Thread nD τ).loc main_arg2) : S1024x1024.Idx → EReal) (ix2 i d)) k :=
    funext fun d' => (iblk1_0_apply (V3 m ρ) c t k d').trans (projected_entry m ρ c k d')
  have hkey : (fun (n' : Fin 2048) (d' : Fin 1024) => (iblk1 (V3 m ρ) c 1 t : Vec Ideal S1x2048x1024 .bf16) (ix3 (0 : Fin 1) n' d'))
      = fun n' d' => (m ((c : Thread nD τ).loc main_arg1) : S16x2048x1024.Idx → EReal) (ix3 (batchOf t) n' d') :=
    funext fun n' => funext fun d' => (iblk1_1_apply (V3 m ρ) c t n' d').trans (key_entry m ρ c (batchOf t) n' d')
  have hmask : (fun n' : Fin 2048 => IntOp.cmpi .ne ((iblk1 (V3 m ρ) c 2 t : Vec Ideal S1x512x2048 .i32) (ix3 (0 : Fin 1) k n')) 0#32)
      = fun n' => (m ((c : Thread nD τ).loc main_arg3) : S16x512x2048.Idx → BitVec 1) (ix3 (batchOf t) k n') :=
    funext fun n' => (congrArg (fun w => IntOp.cmpi .ne w 0#32) (iblk1_2_apply (V3 m ρ) c t k n')).trans (mask_entry m ρ c (batchOf t) k n')
  exact out_congr hp hkey hmask d

/-- The weights' buffer after the run. -/
theorem weights_buffer (c : Dev nD) :
    W4 m ρ c (Proc.devRef .tc main_v5_0)
      = Cert.Attention.att (m ((c : Thread nD τ).loc main_arg0)) (m ((c : Thread nD τ).loc main_arg1))
          (m ((c : Thread nD τ).loc main_arg2)) (m ((c : Thread nD τ).loc main_arg3)) :=
  (W4_v5_0 m ρ c).trans (weights m ρ c)

/-- The output's buffer after the run. -/
theorem output_buffer (c : Dev nD) :
    W4 m ρ c (Proc.devRef .tc main_v5_1)
      = Cert.Attention.out (m ((c : Thread nD τ).loc main_arg0)) (m ((c : Thread nD τ).loc main_arg1))
          (m ((c : Thread nD τ).loc main_arg2)) (m ((c : Thread nD τ).loc main_arg3)) :=
  (W4_v5_1 m ρ c).trans (output m ρ c)

end Cert.KernelIdeal.AttentionValue

end
-- ==== Proof.RefConsts.lean ====
/-
  The three float words the reference spells, as the extended reals they denote, and the two facts that follow from
  them: dividing by the square root of 1024 is multiplying by 2^-5, and the maximum of -inf and x is x.
  One module states them all, so that the definitions of the word reading are unfolded in one place only.
-/
import Idealize.ShloMosaic.PureOps.Ideal

noncomputable section

namespace Cert.RefConsts

open Idealize.ShloMosaic

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3D000000 denotes the real 1/32 = 2^-5. -/
theorem ofBits_inv32 : Ideal.ofBits .f32 0x3D000000#32 = ((1 / 32 : ℝ) : EReal) := by
  simp [Ideal.ofBits, Ideal.ieee, -EReal.coe_mul]; norm_num

/-- The word 0xFF800000 denotes -inf, the least extended real. -/
theorem ofBits_negInf : Ideal.ofBits .f32 0xFF800000#32 = (⊥ : EReal) := by
  simp [Ideal.ofBits, Ideal.ieee]

/-- The square root of 1024 is 32, since 32 * 32 = 1024. -/
theorem sqrt_1024 : Ideal.sqrt (Ideal.ofBits .f32 0x44800000#32) = ((32 : ℝ) : EReal) := by
  rw [ofBits_1024, Ideal.sqrt_coe, if_neg (by norm_num)]
  have h : Real.sqrt 1024 = 32 := by
    rw [show (1024 : ℝ) = 32 * 32 by norm_num]
    exact Real.sqrt_mul_self (by norm_num)
  rw [h]

/-- Dividing by the square root of 1024 is multiplying by 2^-5, for every extended real x, the infinities included:
    the divisor 32 is a nonzero real, and division by a nonzero real is the product with its reciprocal. -/
theorem div_sqrt_1024 (x : EReal) :
    Ideal.div x (Ideal.sqrt (Ideal.ofBits .f32 0x44800000#32)) = x * Ideal.ofBits .f32 0x3D000000#32 := by
  rw [sqrt_1024, ofBits_inv32, Ideal.div_coe (by norm_num)]

/-- The maximum of -inf and x is x. -/
theorem max_negInf (x : EReal) : max (Ideal.ofBits .f32 0xFF800000#32) x = x := by
  rw [ofBits_negInf]; exact max_eq_right bot_le

end Cert.RefConsts

end
-- ==== Proof.RefAttention.lean ====
/-
  The reference program computes the attention weights and the output of Proof/Attention.lean.

  Read one stage at a time, at coordinates (b, k, n):
    * the projection divided by the square root of 1024 is the projection times 2^-5 (Proof/RefConsts.lean);
    * the reference multiplies key_b(n, d) by the projected query p(k, d) and transposes the result, the specification
      multiplies p(k, d) by key_b(n, d): the products commute term by term;
    * the masked score row of (b, k) is the specification's masked row;
    * the row maximum, a fold of max from -inf over the row, is the specification's rowMax, and the further maximum
      with -inf changes nothing;
    * the exponentials, their row sum (zero plus the sum) and the quotient are the specification's softmaxRow;
    * the output is the weights against the key columns.
-/
import proofs.«140997_j44401371906483_1_alg».proof.Proof.Attention
import proofs.«140997_j44401371906483_1_alg».proof.Proof.RefConsts
import proofs.«140997_j44401371906483_1_alg».proof.Proof.Gen.ReferenceIdeal.Read
import Idealize.ShloMosaic.PureOps.Ideal.Laws
import Idealize.ShloMosaic.PureOps.Reduce

noncomputable section

open scoped BigOperators
open Idealize.ShloMosaic Idealize.ShloMosaic.ValueIdx

namespace Cert.ReferenceIdeal.RefValue
open Cert.ReferenceIdeal Cert.ReferenceIdeal.Read

/-! ## The index functions of the generated reading, at coordinates -/

theorem lidx_v0 (k : Fin 512) (d a : Fin 1024) : lidx_main_v0 (ix2 k d) a = ix2 k a :=
  funext fun c => Fin.ext (by match c with | ⟨0, _⟩ => rfl | ⟨1, _⟩ => rfl)
theorem ridx_v0 (k : Fin 512) (d a : Fin 1024) : ridx_main_v0 (ix2 k d) a = ix2 a d :=
  funext fun c => Fin.ext (by match c with | ⟨0, _⟩ => rfl | ⟨1, _⟩ => rfl)
theorem lidx_v4 (b : Fin 16) (k : Fin 512) (n : Fin 2048) (d : Fin 1024) :
    lidx_main_v4 (idx_main_v5 (ix3 b k n)) d = ix3 b n d :=
  funext fun c => Fin.ext (by match c with | ⟨0, _⟩ => rfl | ⟨1, _⟩ => rfl | ⟨2, _⟩ => rfl)
theorem ridx_v4 (b : Fin 16) (k : Fin 512) (n : Fin 2048) (d : Fin 1024) :
    ridx_main_v4 (idx_main_v5 (ix3 b k n)) d = ix2 k d :=
  funext fun c => Fin.ext (by match c with | ⟨0, _⟩ => rfl | ⟨1, _⟩ => rfl)
theorem idx_v10_v11 (b : Fin 16) (k : Fin 512) (n : Fin 2048) :
    idx_main_v10 (idx_main_v11 (ix3 b k n)) = ix2 b k :=
  funext fun c => Fin.ext (by match c with | ⟨0, _⟩ => rfl | ⟨1, _⟩ => rfl)
theorem idx_v15_v16 (b : Fin 16) (k : Fin 512) (n : Fin 2048) :
    idx_main_v15 (idx_main_v16 (ix3 b k n)) = ix2 b k :=
  funext fun c => Fin.ext (by match c with | ⟨0, _⟩ => rfl | ⟨1, _⟩ => rfl)
theorem idx_v14 (b : Fin 16) (k : Fin 512) (n : Fin 2048) : idx_main_v14 (ix2 b k) n = ix3 b k n :=
  funext fun c => Fin.ext (by match c with | ⟨0, _⟩ => rfl | ⟨1, _⟩ => rfl | ⟨2, _⟩ => rfl)
theorem lidx_v18 (b : Fin 16) (k : Fin 512) (d : Fin 1024) (n : Fin 2048) : lidx_main_v18 (ix3 b k d) n = ix3 b k n :=
  funext fun c => Fin.ext (by match c with | ⟨0, _⟩ => rfl | ⟨1, _⟩ => rfl | ⟨2, _⟩ => rfl)
theorem ridx_v18 (b : Fin 16) (k : Fin 512) (d : Fin 1024) (n : Fin 2048) : ridx_main_v18 (ix3 b k d) n = ix3 b n d :=
  funext fun c => Fin.ext (by match c with | ⟨0, _⟩ => rfl | ⟨1, _⟩ => rfl | ⟨2, _⟩ => rfl)

/-! ## The stages, at coordinates -/

variable (x0 : (⟨S512x1024, .f32⟩ : BufTy).Contents (Elt Ideal)) (x1 : (⟨S16x2048x1024, .f32⟩ : BufTy).Contents (Elt Ideal))
  (x2 : (⟨S1024x1024, .f32⟩ : BufTy).Contents (Elt Ideal)) (x3 : (⟨S16x512x2048, .i1⟩ : BufTy).Contents (Elt Ideal))

/-- The specification's projected query of these arrays. -/
abbrev projOf : Fin 512 → Fin 1024 → EReal :=
  Cert.Attention.proj (fun k d => x0 (ix2 k d)) (fun a d => x2 (ix2 a d))

/-- The specification's masked score row of batch b and query row k. -/
abbrev rowOf (b : Fin 16) (k : Fin 512) : Fin 2048 → EReal :=
  Cert.Attention.maskRow (fun n => x3 (ix3 b k n))
    (Cert.Attention.scoreRow (projOf x0 x2 k) (fun n d => x1 (ix3 b n d)))

/-- The scaled projection: the quotient by the square root of 1024 is the product with 2^-5. -/
theorem v3_at (k : Fin 512) (d : Fin 1024) : val_main_v3 (F := Ideal) x0 x2 (ix2 k d) = projOf x0 x2 k d := by
  rw [val_main_v3_apply, val_main_v0_apply, val_main_v2_apply, val_main_v1_apply, val_main_cst_apply]
  show Ideal.div _ (Ideal.sqrt (Ideal.ofBits .f32 0x44800000#32)) = _
  rw [Cert.RefConsts.div_sqrt_1024]
  unfold projOf Cert.Attention.proj
  simp only [lidx_v0, ridx_v0]

/-- The transposed score: key times projected query, summed over the feature axis, is the specification's score. -/
theorem v5_at (b : Fin 16) (k : Fin 512) (n : Fin 2048) :
    val_main_v5 (F := Ideal) x0 x1 x2 (ix3 b k n)
      = Cert.Attention.scoreRow (projOf x0 x2 k) (fun n d => x1 (ix3 b n d)) n := by
  rw [val_main_v5_apply, val_main_v4_apply]
  unfold Cert.Attention.scoreRow
  refine Finset.sum_congr rfl fun d _ => ?_
  rw [lidx_v4, ridx_v4, v3_at]
  exact mul_comm _ _

/-- The masked score. -/
theorem v6_at (b : Fin 16) (k : Fin 512) (n : Fin 2048) :
    val_main_v6 (F := Ideal) x0 x1 x2 x3 (ix3 b k n) = rowOf x0 x1 x2 x3 b k n := by
  rw [val_main_v6_apply, v5_at, val_main_call0_v1_apply, val_main_call0_v0_apply, val_main_cst_0_apply]
  rfl

/-- A maximum-reduce of a [16, 512, 2048] array over its last axis, at (b, k): the fold of max from the initial value
    over the row (b, k, ·). The operation is commutative and associative, so the order of the fold is immaterial. -/
theorem reduce_max_row (x : (⟨S16x512x2048, .f32⟩ : BufTy).Contents (Elt Ideal)) (init : (⟨S_, .f32⟩ : BufTy).Contents (Elt Ideal))
    (h' : S16x512x2048.ReducesTo [2] S16x512) (hu : 0 < S_.numel) (b : Fin 16) (k : Fin 512) :
    Host.reduce (FloatOps.maximumf (F := Ideal) (φ := .f32)) x init h' hu (ix2 b k)
      = (Finset.univ : Finset (Fin 2048)).fold max (init (Shape.Idx.first hu) : EReal) (fun n => (x (ix3 b k n) : EReal)) := by
  have h : S16x512x2048.Reduces [2] S16x512 := by decide
  rw [Host.reduce_eq_fold_single _ x init h' h hu (ix2 b k)]
  refine Finset.fold_congr fun n _ => ?_
  exact congrArg x (funext fun c => Fin.ext (by match c with | ⟨0, _⟩ => rfl | ⟨1, _⟩ => rfl | ⟨2, _⟩ => rfl))

/-- The row maximum stage is the specification's row maximum of the masked score row. -/
theorem v7_at (b : Fin 16) (k : Fin 512) :
    val_main_v7 (F := Ideal) x0 x1 x2 x3 (ix2 b k) = Cert.Attention.rowMax (rowOf x0 x1 x2 x3 b k) := by
  unfold val_main_v7
  refine (reduce_max_row _ _ _ _ b k).trans ?_
  unfold Cert.Attention.rowMax
  exact Finset.fold_congr fun n _ => v6_at x0 x1 x2 x3 b k n

/-- The further maximum with -inf leaves the row maximum as it is. -/
theorem v9_at (b : Fin 16) (k : Fin 512) :
    val_main_v9 (F := Ideal) x0 x1 x2 x3 (ix2 b k) = Cert.Attention.rowMax (rowOf x0 x1 x2 x3 b k) := by
  rw [val_main_v9_apply, val_main_v8_apply, val_main_cst_2_apply, v7_at]
  exact Cert.RefConsts.max_negInf _

/-- The row maximum broadcast back along the row. -/
theorem v11_at (b : Fin 16) (k : Fin 512) (n : Fin 2048) :
    val_main_v11 (F := Ideal) x0 x1 x2 x3 (ix3 b k n) = Cert.Attention.rowMax (rowOf x0 x1 x2 x3 b k) := by
  rw [val_main_v11_apply, val_main_v10_apply, idx_v10_v11, v9_at]

/-- The exponential of the distance to the row maximum. -/
theorem v13_at (b : Fin 16) (k : Fin 512) (n : Fin 2048) :
    val_main_v13 (F := Ideal) x0 x1 x2 x3 (ix3 b k n)
      = Ideal.exp (rowOf x0 x1 x2 x3 b k n - Cert.Attention.rowMax (rowOf x0 x1 x2 x3 b k)) := by
  rw [val_main_v13_apply, val_main_v12_apply, v6_at, v11_at]
  rfl

/-- The row sum of the exponentials: the initial value is zero. -/
theorem v14_at (b : Fin 16) (k : Fin 512) :
    val_main_v14 (F := Ideal) x0 x1 x2 x3 (ix2 b k)
      = ∑ n : Fin 2048, Ideal.exp (rowOf x0 x1 x2 x3 b k n - Cert.Attention.rowMax (rowOf x0 x1 x2 x3 b k)) := by
  rw [val_main_v14_apply, val_main_cst_3_apply]
  show Ideal.ofBits .f32 0x00000000#32 + _ = _
  rw [Ideal.ofBits_zero_f32, zero_add]
  refine Finset.sum_congr rfl fun n _ => ?_
  rw [idx_v14, v13_at]

/-- The row sum broadcast back along the row. -/
theorem v16_at (b : Fin 16) (k : Fin 512) (n : Fin 2048) :
    val_main_v16 (F := Ideal) x0 x1 x2 x3 (ix3 b k n)
      = ∑ n' : Fin 2048, Ideal.exp (rowOf x0 x1 x2 x3 b k n' - Cert.Attention.rowMax (rowOf x0 x1 x2 x3 b k)) := by
  rw [val_main_v16_apply, val_main_v15_apply, idx_v15_v16, v14_at]

/-- The reference's attention weights are the specification's. -/
theorem att_ref (x0 : (⟨S512x1024, .f32⟩ : BufTy).Contents (Elt Ideal)) (x1 : (⟨S16x2048x1024, .f32⟩ : BufTy).Contents (Elt Ideal))
    (x2 : (⟨S1024x1024, .f32⟩ : BufTy).Contents (Elt Ideal)) (x3 : (⟨S16x512x2048, .i1⟩ : BufTy).Contents (Elt Ideal)) :
    val_main_v17 (F := Ideal) x0 x1 x2 x3 = Cert.Attention.att x0 x1 x2 x3 := by
  funext i
  obtain ⟨b, k, n, rfl⟩ : ∃ (b : Fin 16) (k : Fin 512) (n : Fin 2048), i = ix3 b k n := ⟨i 0, i 1, i 2, eq_ix3 i⟩
  rw [val_main_v17_apply, v13_at, v16_at]
  rfl

/-- The reference's output is the specification's: the weights against the key columns. -/
theorem out_ref (x0 : (⟨S512x1024, .f32⟩ : BufTy).Contents (Elt Ideal)) (x1 : (⟨S16x2048x1024, .f32⟩ : BufTy).Contents (Elt Ideal))
    (x2 : (⟨S1024x1024, .f32⟩ : BufTy).Contents (Elt Ideal)) (x3 : (⟨S16x512x2048, .i1⟩ : BufTy).Contents (Elt Ideal)) :
    val_main_v18 (F := Ideal) x0 x1 x2 x3 = Cert.Attention.out x0 x1 x2 x3 := by
  funext i
  obtain ⟨b, k, d, rfl⟩ : ∃ (b : Fin 16) (k : Fin 512) (d : Fin 1024), i = ix3 b k d := ⟨i 0, i 1, i 2, eq_ix3 i⟩
  rw [val_main_v18_apply, att_ref]
  unfold Cert.Attention.out Cert.Attention.outRow
  refine Finset.sum_congr rfl fun n _ => ?_
  rw [lidx_v18, ridx_v18]
  rfl

end Cert.ReferenceIdeal.RefValue

end
-- ==== Proof.Claims.lean ====
/-
  The five claims.

  The three frames: the two kernels' are generated whole; the reference has no kernel, and its frame is its run with
  the results dropped. The idealization rewrote nothing, so there is nothing to preserve. The value claim: both
  programs end with the output at outRow(attRow(…)) and the weights at attRow(…) of the four arguments — the kernel by
  its two regions' folded write-backs (the projection kernel's one block, then one slab per batch), the reference by
  reading its host operations one at a time — and the arguments agree.
-/
import proofs.«140997_j44401371906483_1_alg».proof.Defs
import proofs.«140997_j44401371906483_1_alg».proof.Proof.Gen.Kernel.Frame
import proofs.«140997_j44401371906483_1_alg».proof.Proof.Gen.KernelIdeal.Frame
import proofs.«140997_j44401371906483_1_alg».proof.Proof.Gen.ReferenceIdeal.Run
import proofs.«140997_j44401371906483_1_alg».proof.Proof.Gen.ReferenceIdeal.Read
import proofs.«140997_j44401371906483_1_alg».proof.Proof.Gen.Pre_finite_inputs
import proofs.«140997_j44401371906483_1_alg».proof.Proof.KernelRun
import proofs.«140997_j44401371906483_1_alg».proof.Proof.KernelValue
import proofs.«140997_j44401371906483_1_alg».proof.Proof.RefAttention

noncomputable section

open Idealize.ShloMosaic Idealize.ShloMosaic.TcCoe Idealize.SL.Sem

namespace Cert.Proof.AttentionClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the output and the weights at the same functions of arguments that agree. -/
theorem algebraic : Cert.algebraic_KernelIdeal_ReferenceIdeal := by
  intro m ρ m' ρ' _ hagree
  refine ⟨fun c => Cert.Attention.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Attention.att (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.AttentionValue.output_buffer m ρ c),
        (h c).2.1.trans (Cert.KernelIdeal.AttentionValue.weights_buffer m ρ c), (h c).2.2⟩)
      (Cert.KernelIdeal.RunValue.run_named (F := Ideal) m ρ)
  · refine (θ_run Cert.ReferenceIdeal.defs _ _).mono (fun _ h c => ⟨?_, ?_, (h c).2.2⟩)
      (Cert.ReferenceIdeal.Value.run (F := Ideal) m' ρ')
    · refine (h c).1.trans ?_
      rw [(hagree c).1, (hagree c).2.1, (hagree c).2.2.1, (hagree c).2.2.2]
      exact (Cert.ReferenceIdeal.Read.val_main_v18_eq _ _ _ _).trans (Cert.ReferenceIdeal.RefValue.out_ref _ _ _ _)
    · refine (h c).2.1.trans ?_
      rw [(hagree c).1, (hagree c).2.1, (hagree c).2.2.1, (hagree c).2.2.2]
      exact (Cert.ReferenceIdeal.Read.val_main_v17_eq _ _ _ _).trans (Cert.ReferenceIdeal.RefValue.att_ref _ _ _ _)

end Cert.Proof.AttentionClaims

end
-- ==== Proof.lean ====
/-
  Masked-softmax attention: a program of two kernels against its reference, equal over the extended reals.

  The program: p = (q W) 2^-5 in one kernel; then per batch b, in a second kernel, the scores p key_b^T masked to -inf,
  their row-wise softmax (the weights), and the weights against key_b (the output). The reference: (q W) / sqrt(1024),
  one contraction for the scores, the row-wise softmax, one contraction for the output. On the extended reals the two are one function:
  sqrt(1024) is 32 and dividing by 32 is multiplying by 2^-5 at every extended real; the reference's score product has
  its factors the other way round; its extra maximum against -inf changes nothing; a format change is the identity; the
  sums are finite sums in any order. No step needs the inputs finite.

  Modules: Attention (the function, row by row); RefConsts and RefAttention (the reference is that function);
  PayloadAttention over five small layout and product lemma files (each kernel body's stored value at an index is that
  function of its blocks); Blocks (each block by coordinates, the covers); Entry (what each kernel finds in its
  windows' arrays); KernelRun (the run with both result arrays named); KernelValue (the arrays after the run);
  Claims; assembled here behind the witnesses of the programs' stated facts.
-/
import proofs.«140997_j44401371906483_1_alg».proof.Defs
import proofs.«140997_j44401371906483_1_alg».proof.Proof.Gen.Kernel
import proofs.«140997_j44401371906483_1_alg».proof.Proof.Gen.Kernel.Skeleton
import proofs.«140997_j44401371906483_1_alg».proof.Proof.Gen.Kernel.Launch
import proofs.«140997_j44401371906483_1_alg».proof.Proof.Gen.Kernel.Points
import proofs.«140997_j44401371906483_1_alg».proof.Proof.Gen.Kernel.Frame
import proofs.«140997_j44401371906483_1_alg».proof.Proof.Gen.KernelIdeal
import proofs.«140997_j44401371906483_1_alg».proof.Proof.Gen.KernelIdeal.Skeleton
import proofs.«140997_j44401371906483_1_alg».proof.Proof.Gen.KernelIdeal.Launch
import proofs.«140997_j44401371906483_1_alg».proof.Proof.Gen.KernelIdeal.Points
import proofs.«140997_j44401371906483_1_alg».proof.Proof.Gen.KernelIdeal.Frame
import proofs.«140997_j44401371906483_1_alg».proof.Proof.Gen.ReferenceIdeal
import proofs.«140997_j44401371906483_1_alg».proof.Proof.Gen.Pre_finite_inputs
import proofs.«140997_j44401371906483_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttentionClaims.frame_k, AttentionClaims.frame_ki, AttentionClaims.frame_ri, AttentionClaims.preserves,
    AttentionClaims.algebraic⟩

end Cert.Proof

end
